-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 38
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S100000, .f32⟩
  | .hbm, ⟨26, _⟩ => ⟨S600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S128x128, .f32⟩
  | .hbm, ⟨36, _⟩ => ⟨S128x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S100000, .f32⟩
  | .hbm, ⟨26, _⟩ => ⟨S600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageLaw.lean ====
/-
  One layer of a graph convolution with mean aggregation, entry by entry.

  For node `r` and output feature `c`, with `agg` the sum of the neighbours' feature rows, `den r` the number of
  neighbours clamped below by one, `x` the node features and `wl`, `b`, `wr` the layer's parameters,

      out (r, c) = (Σ_k (agg (r, k) / den r) · wl (c, k) + b c) + Σ_k x (r, k) · wr (c, k).

  The same entry can be arranged with the mean taken by a precomputed reciprocal column `inv (r, 0) = 1 / den r`,
  the weights stored transposed, the two products added first and the bias last:

      out (r, c) = (Σ_k (agg (r, k) · inv (r, 0)) · wlT (k, c) + Σ_k x (r, k) · wrT (k, c)) + b c.

  The two agree on ALL extended reals as soon as `den r ≠ 0`: dividing by a non-zero `d` is multiplying by `d⁻¹`,
  and `1 / d` is `1 · d⁻¹ = d⁻¹`, so `a · (1 / d) = a / d` with no finiteness asked of `a` or `d`; what is left is
  commutativity and associativity of `+`, which hold at the infinities too. A maximum with one is at least one,
  hence never zero: that is how a clamped neighbour count meets the side condition.
-/
import Idealize.ShloMosaic.PureOps.Ideal
import Idealize.ShloMosaic.PureOps.IdealRules
import Idealize.ShloMosaic.Lib.ValueIdx

noncomputable section

namespace Cert.Sage

open Idealize.ShloMosaic Idealize.ShloMosaic.ValueIdx

/-! ## The scalar facts -/

/-- The `f32` pattern of `1.0` denotes the number one. -/
theorem one_f32 : Ideal.ofBits .f32 0x3F800000#32 = (1 : EReal) := IdealRules.sign_bit.ideal_onePat .f32

/-- A maximum with one is never zero: it is at least one. -/
theorem max_one_ne_zero (x : EReal) : max x (Ideal.ofBits .f32 0x3F800000#32) ≠ 0 := by
  rw [one_f32]
  intro h
  have h1 : (1 : EReal) ≤ max x 1 := le_max_right x 1
  rw [h] at h1
  exact absurd h1 (not_le.mpr zero_lt_one)

/-- Multiplying by the reciprocal of a non-zero `d` is dividing by `d`, on every extended real. -/
theorem mul_one_div (a d : EReal) (hd : d ≠ 0) :
    a * Ideal.div (Ideal.ofBits .f32 0x3F800000#32) d = Ideal.div a d := by
  simp only [one_f32, Ideal.div, if_neg hd, one_mul]

/-- One row against one column of each weight matrix: the reciprocal arrangement with the bias last is the
    quotient arrangement with the bias in the middle. -/
theorem row_law {ι : Type} [Fintype ι] (a x wl wr : ι → EReal) (d b : EReal) (hd : d ≠ 0) :
    ((∑ k, (a k * Ideal.div (Ideal.ofBits .f32 0x3F800000#32) d) * wl k) + ∑ k, x k * wr k) + b
      = ((∑ k, Ideal.div (a k) d * wl k) + b) + ∑ k, x k * wr k := by
  simp only [mul_one_div _ d hd]
  exact add_right_comm _ _ _

/-! ## The layer over its literal shapes -/

/-- An `r × c` array of extended reals, indexed as the printed programs index theirs. -/
abbrev Mat (r c : ℕ) : Type := (⟨2, ![r, c]⟩ : Shape).Idx → EReal
/-- A length-`n` array of extended reals. -/
abbrev Row (n : ℕ) : Type := (⟨1, ![n]⟩ : Shape).Idx → EReal

/-- Entry `(r, c)` of the layer: the mean of the neighbours' features through `wl`, plus the bias, plus the node's
    own features through `wr`. -/
def entry (agg : Mat 100000 128) (den : Row 100000) (x : Mat 100000 128) (wl : Mat 128 128) (b : Row 128)
    (wr : Mat 128 128) (r : Fin 100000) (c : Fin 128) : EReal :=
  ((∑ k : Fin 128, Ideal.div (agg (ix2 r k)) (den (ix1 r)) * wl (ix2 c k)) + b (ix1 c))
    + ∑ k : Fin 128, x (ix2 r k) * wr (ix2 c k)

/-- The layer's output array. -/
def layer (agg : Mat 100000 128) (den : Row 100000) (x : Mat 100000 128) (wl : Mat 128 128) (b : Row 128)
    (wr : Mat 128 128) : Mat 100000 128 :=
  fun i => entry agg den x wl b wr (i 0) (i 1)

/-- Entry `(r, c)` in the reciprocal arrangement: a column `inv` of reciprocals scales the aggregated row, the
    weights are read transposed, the bias comes last. -/
def fusedEntry (agg : Mat 100000 128) (inv : Mat 100000 1) (x : Mat 100000 128) (wlT : Mat 128 128) (b : Row 128)
    (wrT : Mat 128 128) (r : Fin 100000) (c : Fin 128) : EReal :=
  ((∑ k : Fin 128, (agg (ix2 r k) * inv (ix2 r (0 : Fin 1))) * wlT (ix2 k c))
    + ∑ k : Fin 128, x (ix2 r k) * wrT (ix2 k c)) + b (ix1 c)

/-- The output array in the reciprocal arrangement. -/
def fused (agg : Mat 100000 128) (inv : Mat 100000 1) (x : Mat 100000 128) (wlT : Mat 128 128) (b : Row 128)
    (wrT : Mat 128 128) : Mat 100000 128 :=
  fun i => fusedEntry agg inv x wlT b wrT (i 0) (i 1)

/-- The two arrangements are one array when `inv` holds the reciprocals of a nowhere-zero `den` and the transposed
    weights are the weights transposed. -/
theorem fused_eq_layer (agg : Mat 100000 128) (den : Row 100000) (x : Mat 100000 128) (wl : Mat 128 128) (b : Row 128)
    (wr : Mat 128 128) (inv : Mat 100000 1) (wlT wrT : Mat 128 128)
    (hinv : ∀ r : Fin 100000, inv (ix2 r (0 : Fin 1)) = Ideal.div (Ideal.ofBits .f32 0x3F800000#32) (den (ix1 r)))
    (hden : ∀ r : Fin 100000, den (ix1 r) ≠ 0)
    (hwl : ∀ (k c : Fin 128), wlT (ix2 k c) = wl (ix2 c k))
    (hwr : ∀ (k c : Fin 128), wrT (ix2 k c) = wr (ix2 c k)) :
    fused agg inv x wlT b wrT = layer agg den x wl b wr := by
  funext i
  obtain ⟨r, c, rfl⟩ : ∃ (r : Fin 100000) (c : Fin 128), i = ix2 r c := ⟨i 0, i 1, eq_ix2 i⟩
  show fusedEntry agg inv x wlT b wrT r c = entry agg den x wl b wr r c
  unfold fusedEntry entry
  simp only [hinv, hwl, hwr]
  exact row_law _ _ _ _ _ _ (hden r)

end Cert.Sage

end
-- ==== Proof.RefIsLayer.lean ====
/-
  The reference's result is the layer.

  The reference divides the aggregated features by the clamped neighbour count (the count broadcast first to a column,
  then along the rows), multiplies by the transposed left weights, adds the bias (broadcast to a row, then down the
  rows), and adds the product of the features with the transposed right weights. Read at `(r, c)`, each broadcast and
  transpose only moves the index: the count is read at `r`, the bias at `c`, a transposed weight at `(c, k)`. What
  remains is exactly the layer's entry, with the aggregated features and the clamped count kept as the stages that
  compute them (a gather and two scatter-adds of the edge list, never opened here).
-/
import proofs.«122155_j87703232184758_2_alg».proof.Proof.Gen.ReferenceIdeal.Read
import proofs.«122155_j87703232184758_2_alg».proof.Proof.SageLaw

noncomputable section

namespace Cert.ReferenceIdeal.RefValue

open Cert.ReferenceIdeal Cert.ReferenceIdeal.Read Idealize.ShloMosaic Idealize.ShloMosaic.ValueIdx

/-- The reference's last stage, as a function of the five arguments, is the layer of the aggregated features, the
    clamped neighbour count, the features and the parameters. -/
theorem result_is_layer (x0 : (⟨S100000x128, .f32⟩ : BufTy).Contents (Elt Ideal))
    (x1 : (⟨S2x600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v30 (F := Ideal) x0 x1 x2 x3 x4
      = Cert.Sage.layer (val_main_v13 (F := Ideal) x0 x1) (val_main_v19 (F := Ideal) x1) x0 x2 x3 x4 := by
  funext i
  obtain ⟨r, c, rfl⟩ : ∃ (r : Fin 100000) (c : Fin 128), i = ix2 r c := ⟨i 0, i 1, eq_ix2 i⟩
  show _ = Cert.Sage.entry (val_main_v13 (F := Ideal) x0 x1) (val_main_v19 (F := Ideal) x1) x0 x2 x3 x4 r c
  unfold Cert.Sage.entry
  -- where each layout operation sends the index
  have eL24 : ∀ k : Fin 128, lidx_main_v24 (ix2 r c) k = ix2 r k := fun k => funext fun a => Fin.ext (by
    match a with | ⟨0, _⟩ => rfl | ⟨1, _⟩ => rfl)
  have eR24 : ∀ k : Fin 128, ridx_main_v24 (ix2 r c) k = ix2 k c := fun k => funext fun a => Fin.ext (by
    match a with | ⟨0, _⟩ => rfl | ⟨1, _⟩ => rfl)
  have eL29 : ∀ k : Fin 128, lidx_main_v29 (ix2 r c) k = ix2 r k := fun k => funext fun a => Fin.ext (by
    match a with | ⟨0, _⟩ => rfl | ⟨1, _⟩ => rfl)
  have eR29 : ∀ k : Fin 128, ridx_main_v29 (ix2 r c) k = ix2 k c := fun k => funext fun a => Fin.ext (by
    match a with | ⟨0, _⟩ => rfl | ⟨1, _⟩ => rfl)
  have eT23 : ∀ k : Fin 128, idx_main_v23 (ix2 k c) = ix2 c k := fun k => funext fun a => Fin.ext (by
    match a with | ⟨0, _⟩ => rfl | ⟨1, _⟩ => rfl)
  have eT28 : ∀ k : Fin 128, idx_main_v28 (ix2 k c) = ix2 c k := fun k => funext fun a => Fin.ext (by
    match a with | ⟨0, _⟩ => rfl | ⟨1, _⟩ => rfl)
  have eC21 : ∀ k : Fin 128, idx_main_v21 (ix2 r k) = ix2 r (0 : Fin 1) := fun k => funext fun a => Fin.ext (by
    match a with | ⟨0, _⟩ => rfl | ⟨1, _⟩ => rfl)
  have eC20 : idx_main_v20 (ix2 r (0 : Fin 1)) = ix1 r := funext fun a => Fin.ext (by
    match a with | ⟨0, _⟩ => rfl)
  have eB26 : idx_main_v26 (ix2 r c) = ix2 (0 : Fin 1) c := funext fun a => Fin.ext (by
    match a with | ⟨0, _⟩ => rfl | ⟨1, _⟩ => rfl)
  have eB25 : idx_main_v25 (ix2 (0 : Fin 1) c) = ix1 c := funext fun a => Fin.ext (by
    match a with | ⟨0, _⟩ => rfl)
  rw [val_main_v30_apply, val_main_v27_apply, val_main_v24_apply, val_main_v29_apply, val_main_v26_apply,
    val_main_v25_apply, eB26, eB25]
  simp only [val_main_v22_apply, val_main_v21_apply, val_main_v20_apply, val_main_v23_apply, val_main_v28_apply,
    eL24, eR24, eL29, eR29, eT23, eT28, eC21, eC20, Ideal.addf_def, Ideal.hostDivf_def]

end Cert.ReferenceIdeal.RefValue

end
-- ==== Proof.LibColumnBroadcast.lean ====
/-
  One column broadcast over many.

  An `a × 1` column broadcast to `a × b` repeats, along each row, that row's one entry: the result at `(p, c)` is
  the column at `(p, 0)`, whatever the column coordinate `c`. (The companion of the row form, where a `1 × b` row
  is repeated down the rows.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.BodyAtEntry.lean ====
/-
  What the kernel body stores, read at one entry of its block.

  The body works on a block of 5000 rows. It scales each aggregated row by that row's reciprocal (a 5000 × 1 column
  broadcast along the row), multiplies the scaled block and the feature block by the two resident 128 × 128 weight
  blocks, adds the two products and then the bias row (a length-128 row repeated down the rows). Rounding to bf16 on
  the way into the products is the identity on extended reals, a shape cast to the same shape is the identity, and a
  matrix product accumulated into zero is the plain sum over the contracted index. So entry `(p, q)` of the stored
  block is

      (Σ_k (agg (p, k) · inv (p, 0)) · wlT (k, q) + Σ_k x (p, k) · wrT (k, q)) + b q.
-/
import proofs.«122155_j87703232184758_2_alg».proof.Proof.Gen.KernelIdeal.Skeleton
import proofs.«122155_j87703232184758_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The product's dimension record: rows of the left block against columns of the right, one contracted axis. -/
abbrev D := dot_S5000x128_S128x128_S5000x128_1_0_0_1_n_n

/-! ## The product's operand indices, coordinate by coordinate -/

theorem lhs_row (i : S5000x128.Idx) (q : D.contr.Idx) : (D.lhsIdx i q 0).val = (i 0).val := by
  unfold DotDims.lhsIdx
  rw [dif_neg (show ¬(0 : Fin S5000x128.rank) ∈ D.lhsBatch by decide),
    dif_pos (show (0 : Fin S5000x128.rank) ∈ D.lhsNonContracting by decide)]
  rfl

theorem lhs_col (i : S5000x128.Idx) (q : D.contr.Idx) : (D.lhsIdx i q 1).val = (q ⟨0, by decide⟩).val :=
  D.lhsIdx_val_of_single rfl i q

theorem rhs_row (i : S5000x128.Idx) (q : D.contr.Idx) : (D.rhsIdx i q 0).val = (q ⟨0, by decide⟩).val :=
  D.rhsIdx_val_of_single rfl i q

theorem rhs_col (i : S5000x128.Idx) (q : D.contr.Idx) : (D.rhsIdx i q 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- A block product accumulated into zero, at `(p, q)`: row `p` of the left block against column `q` of the right. -/
theorem product_apply (l : FVec Ideal S5000x128 .bf16) (r : FVec Ideal S128x128 .bf16) (p : Fin 5000) (q : Fin 128) :
    matmul D none l r (constant (F := Ideal) S5000x128 .f32 0x00000000#32) (ix2 p q)
      = ∑ k : Fin 128, l (ix2 p k) * r (ix2 k q) := by
  refine (Ideal.matmul_constant_zero_apply D none l r (ix2 p q)).trans ?_
  rw [← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((ValueIdx.contrEquiv1 D 128 rfl rfl).symm k) = ix2 k q := funext fun a => Fin.ext (by
    match a with
    | ⟨0, _⟩ => exact (rhs_row _ _).trans hk
    | ⟨1, _⟩ => exact rhs_col _ _)
  rw [el, er]

/-- The bias row, cast to 1 × 128 and repeated down the 5000 rows, at `(p, q)` is the bias at `q`. -/
theorem bias_apply (b : FVec Ideal S128 .f32) (p : Fin 5000) (q : Fin 128) :
    broadcastTo S5000x128 (shapeCast S1x128 (shapeCast S1x128 b shapeCasts_S128_S1x128) shapeCasts_S1x128_S1x128)
        broadcasts_S1x128_S5000x128 (ix2 p q) = b (ix1 q) := by
  rw [shapeCast_self, ValueIdx.broadcastTo_1b_ab_apply, ValueIdx.shapeCast_a_1a_apply]

/-- The reciprocal column repeated along the row, at `(p, k)` is the column's entry of row `p`. -/
theorem scale_apply (inv : FVec Ideal S5000x1 .f32) (p : Fin 5000) (k : Fin 128) :
    broadcastTo S5000x128 inv broadcasts_S5000x1_S5000x128 (ix2 p k) = inv (ix2 p (0 : Fin 1)) :=
  Cert.LibColumnBroadcast.broadcastTo_a1_ab_apply inv broadcasts_S5000x1_S5000x128 p k

/-- THE STORED BLOCK at `(p, q)`. -/
theorem stored_apply (agg : Vec Ideal S5000x128 .f32) (inv : Vec Ideal S5000x1 .f32) (x : Vec Ideal S5000x128 .f32)
    (wlT wrT : Vec Ideal S128x128 .f32) (b : Vec Ideal S128 .f32) (p : Fin 5000) (q : Fin 128) :
    k0_pay1 agg inv x wlT wrT b (ix2 p q)
      = ((∑ k : Fin 128, (agg (ix2 p k) * inv (ix2 p (0 : Fin 1))) * wlT (ix2 k q))
          + ∑ k : Fin 128, x (ix2 p k) * wrT (ix2 k q)) + b (ix1 q) := by
  unfold k0_pay1
  rw [addf_apply, addf_apply, product_apply, product_apply, bias_apply]
  simp only [truncf_apply, mulf_apply, shapeCast_self, scale_apply]

end Cert.KernelIdeal.Body

end
-- ==== Proof.BlocksToArray.lean ====
/-
  From the block each grid point writes to the whole output array.

  The grid has twenty points. Point `t` works on rows `5000·t … 5000·t + 4999`: it reads those rows of the
  aggregated features, of the node features and of the reciprocal column, the two transposed weight matrices and the
  bias whole (their one block, at block index zero, at every point), and writes those rows of the output. The body's
  stored block at `(p, q)` is the reciprocal arrangement's entry over the blocks; a block read at `(p, k)` is the
  array read at `(5000·t + p, k)`; so, for ANY six operand arrays, the block point `t` writes back is block `t` of ONE
  whole-array function, the reciprocal arrangement of those arrays. Row `r` lies in the block of point `r / 5000`, so
  the blocks cover the array, and the output array ends holding that function of the arrays the region finds.
-/
import proofs.«122155_j87703232184758_2_alg».proof.Proof.Gen.KernelIdeal.Value
import proofs.«122155_j87703232184758_2_alg».proof.Proof.BodyAtEntry
import proofs.«122155_j87703232184758_2_alg».proof.Proof.SageLaw

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

theorem zeros2 : (![0, 0] : Fin 2 → Nat) = fun _ => 0 := funext fun a => by fin_cases a <;> rfl
theorem zeros1 : (![0] : Fin 1 → Nat) = fun _ => 0 := funext fun a => by fin_cases a <;> rfl

/-! ## The index maps, decided over the twenty points -/

/-- The three row-blocked inputs move with the output's row block; every other block index is zero; the output's row
    block index is below twenty. -/
theorem block_indices : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) ≤ 19 ∧ win0_6.index t (1 : Fin 2) = 0 :=
  (by decide +kernel : ∀ t : Fin grid0.N, _)

/-- Every row block is some point's. -/
theorem block_onto : ∀ q0 : Fin 20, ∃ t : Fin cfg0.N, win0_6.index t = ![q0.val, 0] :=
  (by decide +kernel : ∀ q0 : Fin 20, ∃ t : Fin grid0.N, win0_6.index t = ![q0.val, 0])

/-! ## Where a block's entry sits in its array -/

/-- Entry `(p, k)` of the aggregated features' block at point `t` is entry `(5000·t + p, k)` of the array. -/
theorem at_rows0 (t : Fin cfg0.N) (p : Fin 5000) (k : Fin 128) (r : Fin 100000)
    (hr : r.val = win0_6.index t (0 : Fin 2) * 5000 + p.val) :
    ((cfg0.win 0).blk t).view.emb (ix2 p k) = (ix2 r k : S100000x128.Idx) := by
  obtain ⟨e0, e1, -⟩ := block_indices t
  refine funext fun a => Fin.ext ?_
  match a with
  | ⟨0, _⟩ => show win0_0.index t (0 : Fin 2) * 5000 + 1 * p.val = r.val; rw [hr, e0]; omega
  | ⟨1, _⟩ => show win0_0.index t (1 : Fin 2) * 128 + 1 * k.val = k.val; rw [e1]; omega

/-- The same for the node features' block. -/
theorem at_rows1 (t : Fin cfg0.N) (p : Fin 5000) (k : Fin 128) (r : Fin 100000)
    (hr : r.val = win0_6.index t (0 : Fin 2) * 5000 + p.val) :
    ((cfg0.win 1).blk t).view.emb (ix2 p k) = (ix2 r k : S100000x128.Idx) := by
  obtain ⟨-, -, e0, e1, -⟩ := block_indices t
  refine funext fun a => Fin.ext ?_
  match a with
  | ⟨0, _⟩ => show win0_1.index t (0 : Fin 2) * 5000 + 1 * p.val = r.val; rw [hr, e0]; omega
  | ⟨1, _⟩ => show win0_1.index t (1 : Fin 2) * 128 + 1 * k.val = k.val; rw [e1]; omega

/-- Entry `(p, 0)` of the reciprocal column's block is entry `(5000·t + p, 0)` of the column. -/
theorem at_rows2 (t : Fin cfg0.N) (p : Fin 5000) (r : Fin 100000)
    (hr : r.val = win0_6.index t (0 : Fin 2) * 5000 + p.val) :
    ((cfg0.win 2).blk t).view.emb (ix2 p (0 : Fin 1)) = (ix2 r (0 : Fin 1) : S100000x1.Idx) := by
  obtain ⟨-, -, -, -, e0, e1, -⟩ := block_indices t
  refine funext fun a => Fin.ext ?_
  match a with
  | ⟨0, _⟩ => show win0_2.index t (0 : Fin 2) * 5000 + 1 * p.val = r.val; rw [hr, e0]; omega
  | ⟨1, _⟩ => show win0_2.index t (1 : Fin 2) * 1 + 1 * 0 = 0; rw [e1]

/-- The left weights' one block is the whole matrix. -/
theorem at_whole3 (t : Fin cfg0.N) (k q : Fin 128) :
    ((cfg0.win 3).blk t).view.emb (ix2 k q) = (ix2 k q : S128x128.Idx) := by
  obtain ⟨-, -, -, -, -, -, e0, e1, -⟩ := block_indices t
  refine funext fun a => Fin.ext ?_
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias's one block is the whole row. -/
theorem at_whole4 (t : Fin cfg0.N) (q : Fin 128) :
    ((cfg0.win 4).blk t).view.emb (ix1 q) = (ix1 q : S128.Idx) := by
  obtain ⟨-, -, -, -, -, -, -, -, e0, -⟩ := block_indices t
  refine funext fun a => Fin.ext ?_
  match a with
  | ⟨0, _⟩ => show win0_4.index t (0 : Fin 1) * 128 + 1 * q.val = q.val; rw [e0]; omega

/-- The right weights' one block is the whole matrix. -/
theorem at_whole5 (t : Fin cfg0.N) (k q : Fin 128) :
    ((cfg0.win 5).blk t).view.emb (ix2 k q) = (ix2 k q : S128x128.Idx) := by
  obtain ⟨-, -, -, -, -, -, -, -, -, e0, e1, -⟩ := block_indices t
  refine funext fun a => Fin.ext ?_
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-- Entry `(p, q)` of the output's block at point `t` is entry `(5000·t + p, q)` of the output. -/
theorem at_rows6 (t : Fin cfg0.N) (p : Fin 5000) (q : Fin 128) (r : Fin 100000)
    (hr : r.val = win0_6.index t (0 : Fin 2) * 5000 + p.val) :
    ((cfg0.win 6).blk t).view.emb (ix2 p q) = (ix2 r q : S100000x128.Idx) := by
  obtain ⟨-, -, -, -, -, -, -, -, -, -, -, -, e1⟩ := block_indices t
  refine funext fun a => Fin.ext ?_
  match a with
  | ⟨0, _⟩ => show win0_6.index t (0 : Fin 2) * 5000 + 1 * p.val = r.val; rw [hr]; omega
  | ⟨1, _⟩ => show win0_6.index t (1 : Fin 2) * 128 + 1 * q.val = q.val; rw [e1]; omega

/-! ## One point's block, for any operand arrays -/

/-- The body's stored block over the blocks of six arrays at point `t`, as written back, is block `t` of the
    reciprocal arrangement of those arrays. -/
theorem block_of_fused (t : Fin cfg0.N) (agg : S100000x128.Idx → EReal) (inv : S100000x1.Idx → EReal)
    (x : S100000x128.Idx → EReal) (wlT : S128x128.Idx → EReal) (b : S128.Idx → EReal) (wrT : S128x128.Idx → EReal) :
    (cfg0.win 6).cut (grid0.coords t)
        (k0_pay1 (((cfg0.win 0).blk t).view.read (Elt Ideal) agg) (((cfg0.win 2).blk t).view.read (Elt Ideal) inv)
          (((cfg0.win 1).blk t).view.read (Elt Ideal) x) (((cfg0.win 3).blk t).view.read (Elt Ideal) wlT)
          (((cfg0.win 5).blk t).view.read (Elt Ideal) wrT) (((cfg0.win 4).blk t).view.read (Elt Ideal) b))
      = ((cfg0.win 6).blk t).view.read (Elt Ideal) (Cert.Sage.fused agg inv x wlT b wrT) := by
  funext j
  obtain ⟨p, q, rfl⟩ : ∃ (p : Fin 5000) (q : Fin 128), j = ix2 p q := ⟨j 0, j 1, eq_ix2 j⟩
  obtain ⟨-, -, -, -, -, -, -, -, -, -, -, hle, -⟩ := block_indices t
  have hlt : win0_6.index t (0 : Fin 2) * 5000 + p.val < 100000 := by have := p.isLt; omega
  rw [View.read_apply, at_rows6 t p q ⟨win0_6.index t (0 : Fin 2) * 5000 + p.val, hlt⟩ rfl]
  show k0_pay1 (F := Ideal) _ _ _ _ _ _ (ix2 p q)
    = Cert.Sage.fusedEntry agg inv x wlT b wrT ⟨win0_6.index t (0 : Fin 2) * 5000 + p.val, hlt⟩ q
  unfold Cert.Sage.fusedEntry
  refine (Cert.KernelIdeal.Body.stored_apply _ _ _ _ _ _ p q).trans ?_
  simp only [View.read_apply, at_rows0 t p _ ⟨win0_6.index t (0 : Fin 2) * 5000 + p.val, hlt⟩ rfl,
    at_rows1 t p _ ⟨win0_6.index t (0 : Fin 2) * 5000 + p.val, hlt⟩ rfl,
    at_rows2 t p ⟨win0_6.index t (0 : Fin 2) * 5000 + p.val, hlt⟩ rfl, at_whole3 t, at_whole4 t, at_whole5 t]
  rfl

/-! ## The cover -/

/-- An index of the array is in point `t`'s block iff each coordinate is in the block's range on its axis. -/
theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v25).slice (win0_6.rect t)).set ↔ _
  rw [View.set_slice_whole, Rect.mem_set_unit]
  exact Iff.rfl

/-- Every index of the output array is in some point's block: row `r` in the block of point `r / 5000`. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := block_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-! ## The array after the run -/

variable (m : (ℓ : Loc nD τ sig) → Buf (Elt Ideal) ℓ) (ρ : Dev nD → PrngReg)

/-- The reciprocal arrangement of the six operand arrays as the region finds them: what the output array ends holding. -/
abbrev found (c : Dev nD) : S100000x128.Idx → EReal :=
  Cert.Sage.fused (V m c (Pipeline.arrRef spec0 0)) (V m c (Pipeline.arrRef spec0 2)) (V m c (Pipeline.arrRef spec0 1))
    (V m c (Pipeline.arrRef spec0 3)) (V m c (Pipeline.arrRef spec0 4)) (V m c (Pipeline.arrRef spec0 5))

/-- WHAT POINT `t` WRITES BACK is block `t` of that function. -/
theorem flushed_is_block (c : Dev nD) (t : Fin cfg0.N) :
    (dats m 0 c).flushed 6 t = ((cfg0.win 6).blk t).view.read (Elt Ideal) (found m c) := by
  rw [Cert.KernelIdeal.Value.flushed6]
  unfold out0_6
  rw [View.canon_unit_zero zeros2]
  simp only [View.ld_unit_zero (S := S5000x128) zeros2, View.ld_unit_zero (S := S5000x1) zeros2,
    View.ld_unit_zero (S := S128x128) zeros2, View.ld_unit_zero (S := S128) zeros1]
  unfold iblk
  exact block_of_fused t _ _ _ _ _ _

/-- THE OUTPUT ARRAY after the run is that function. -/
theorem final_array (c : Dev nD) : (dats m 0 c).arrAt 6 cfg0.N = found m c :=
  (dats m 0 c).arrAt_eq_of_cover 6 (found m c) (fun t _ => flushed_is_block m c t) covered

/-- The run, read: the result array at that function, the arguments unchanged. -/
theorem run : θ_run defs (onTc (τ := τ) (main (F := Ideal))) ⟨m, fun _ => 0, ρ⟩ fun r => ∀ c : Dev nD,
      r.2.mem ((c : Thread nD τ).loc main_v25) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_array m c), (h c).2⟩)
    (Cert.KernelIdeal.Value.run_blocks m ρ)

/-- The same function with each operand array named by its buffer. -/
theorem found_named (c : Dev nD) :
    found m c = Cert.Sage.fused (V m c main_v13) (V m c main_v22) (V m c main_arg0) (V m c main_v23) (V m c main_arg3)
      (V m c main_v24) := rfl

end Cert.KernelIdeal.Whole

end
-- ==== Proof.EntryArrays.lean ====
/-
  The operand arrays as the kernel's region finds them.

  Before the region the program computes, from the five arguments: the aggregated neighbour features (a gather of
  the feature rows at the edges' sources, scatter-added at the edges' targets), the neighbour count clamped below by
  one, the column of its reciprocals, and the two weight matrices transposed. The first two are computed by the very
  operations the reference applies, so they are named here by the reference's own stages and never opened. The other
  three are read at an index: the reciprocal column at `(r, 0)` is one over the clamped count at `r`, a transposed
  weight at `(k, c)` is the weight at `(c, k)`. The clamped count is a maximum with one, so it is never zero, and
  the reciprocal arrangement of these arrays is therefore the layer itself.
-/
import proofs.«122155_j87703232184758_2_alg».proof.Proof.Gen.KernelIdeal.Frame
import proofs.«122155_j87703232184758_2_alg».proof.Proof.Gen.ReferenceIdeal.Read
import proofs.«122155_j87703232184758_2_alg».proof.Proof.SageLaw
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## What the region finds -/

/-- The aggregated neighbour features: the reference's stage of the same name, of the same two arguments. -/
theorem found_agg (c : Dev nD) :
    (V m c main_v13 : S100000x128.Idx → EReal)
      = Cert.ReferenceIdeal.Read.val_main_v13 (F := Ideal) (m ((c : Thread nD τ).loc main_arg0))
          (m ((c : Thread nD τ).loc main_arg1)) := by
  dsimp only [Gen.V, Gen.hostOps0]; after_results <;> rfl

/-- The column of reciprocals: one over the clamped neighbour count (the reference's stage), as a column. -/
theorem found_inv (c : Dev nD) :
    (V m c main_v22 : S100000x1.Idx → EReal)
      = broadcastInDim S100000x1 ![0] bcast_S100000_S100000x1_0
          (Host.divf (F := Ideal) (broadcastInDim S100000 ![] bcast_S_S100000 (constant (F := Ideal) S_ .f32 0x3F800000#32))
            (Cert.ReferenceIdeal.Read.val_main_v19 (F := Ideal) (m ((c : Thread nD τ).loc main_arg1)))) := by
  dsimp only [Gen.V, Gen.hostOps0]; after_results <;> rfl

/-- The left weights, transposed. -/
theorem found_wlT (c : Dev nD) :
    (V m c main_v23 : S128x128.Idx → EReal)
      = transpose S128x128 [1, 0] (m ((c : Thread nD τ).loc main_arg2)) transposes_S128x128_S128x128_1_0 := by
  dsimp only [Gen.V, Gen.hostOps0]; after_results <;> rfl

/-- The right weights, transposed. -/
theorem found_wrT (c : Dev nD) :
    (V m c main_v24 : S128x128.Idx → EReal)
      = transpose S128x128 [1, 0] (m ((c : Thread nD τ).loc main_arg4)) transposes_S128x128_S128x128_1_0 := by
  dsimp only [Gen.V, Gen.hostOps0]; after_results <;> rfl

/-! ## Read at an index -/

/-- A length-100000 array made a column reads, at `(r, 0)`, the array at `r`. -/
theorem column_apply (y : S100000.Idx → EReal) (r : Fin 100000) :
    broadcastInDim S100000x1 ![0] bcast_S100000_S100000x1_0 y (ix2 r (0 : Fin 1)) = y (ix1 r) :=
  broadcastInDim_apply _ bcast_S100000_S100000x1_0 y (ix2 r (0 : Fin 1)) (ix1 r) (fun a => match a with
    | ⟨0, _⟩ => by show r.val = if (100000 : Nat) = 1 then 0 else r.val; rw [if_neg (by decide)])

/-- A scalar repeated 100000 times reads, anywhere, the scalar. -/
theorem splat_apply (s : S_.Idx → EReal) (r : Fin 100000) :
    broadcastInDim S100000 ![] bcast_S_S100000 s (ix1 r) = s ix0 :=
  broadcastInDim_apply _ bcast_S_S100000 s (ix1 r) ix0 (fun a => a.elim0)

/-- A host quotient of two length-100000 arrays reads, at an index, the quotient of the two entries. -/
theorem quotient_apply (a b : FVec Ideal S100000 .f32) (i : S100000.Idx) :
    Host.divf (F := Ideal) a b i = Ideal.div (a i) (b i) := rfl

/-- The reciprocal column at `(r, 0)` is one over the clamped count at `r`. -/
theorem inv_apply (c : Dev nD) (r : Fin 100000) :
    (V m c main_v22 : S100000x1.Idx → EReal) (ix2 r (0 : Fin 1))
      = Ideal.div (Ideal.ofBits .f32 0x3F800000#32)
          (Cert.ReferenceIdeal.Read.val_main_v19 (F := Ideal) (m ((c : Thread nD τ).loc main_arg1)) (ix1 r)) := by
  rw [found_inv, column_apply, quotient_apply, splat_apply, constant_apply]

/-- The transposed left weights at `(k, c)` are the left weights at `(c, k)`. -/
theorem wlT_apply (c : Dev nD) (k q : Fin 128) :
    (V m c main_v23 : S128x128.Idx → EReal) (ix2 k q)
      = (m ((c : Thread nD τ).loc main_arg2) : S128x128.Idx → EReal) (ix2 q k) := by
  rw [found_wlT]; exact transpose_ix2_apply _ transposes_S128x128_S128x128_1_0 k q

/-- The transposed right weights at `(k, c)` are the right weights at `(c, k)`. -/
theorem wrT_apply (c : Dev nD) (k q : Fin 128) :
    (V m c main_v24 : S128x128.Idx → EReal) (ix2 k q)
      = (m ((c : Thread nD τ).loc main_arg4) : S128x128.Idx → EReal) (ix2 q k) := by
  rw [found_wrT]; exact transpose_ix2_apply _ transposes_S128x128_S128x128_1_0 k q

/-- The clamped neighbour count is a maximum with one: never zero. -/
theorem den_ne_zero (x1 : (⟨Cert.ReferenceIdeal.S2x600000, .i32⟩ : BufTy).Contents (Elt Ideal)) (r : Fin 100000) :
    Cert.ReferenceIdeal.Read.val_main_v19 (F := Ideal) x1 (ix1 r) ≠ 0 := by
  rw [Cert.ReferenceIdeal.Read.val_main_v19_apply, Cert.ReferenceIdeal.Read.val_main_v18_apply,
    Cert.ReferenceIdeal.Read.val_main_cst_3_apply]
  exact Cert.Sage.max_one_ne_zero _

/-! ## The reciprocal arrangement of the found arrays is the layer -/

theorem fused_found (c : Dev nD) :
    Cert.Sage.fused (V m c main_v13) (V m c main_v22) (V m c main_arg0) (V m c main_v23) (V m c main_arg3) (V m c main_v24)
      = Cert.Sage.layer
          (Cert.ReferenceIdeal.Read.val_main_v13 (F := Ideal) (m ((c : Thread nD τ).loc main_arg0)) (m ((c : Thread nD τ).loc main_arg1)))
          (Cert.ReferenceIdeal.Read.val_main_v19 (F := Ideal) (m ((c : Thread nD τ).loc main_arg1)))
          (m ((c : Thread nD τ).loc main_arg0)) (m ((c : Thread nD τ).loc main_arg2))
          (m ((c : Thread nD τ).loc main_arg3)) (m ((c : Thread nD τ).loc main_arg4)) := by
  have h := Cert.Sage.fused_eq_layer
    (Cert.ReferenceIdeal.Read.val_main_v13 (F := Ideal) (m ((c : Thread nD τ).loc main_arg0)) (m ((c : Thread nD τ).loc main_arg1)))
    (Cert.ReferenceIdeal.Read.val_main_v19 (F := Ideal) (m ((c : Thread nD τ).loc main_arg1)))
    (m ((c : Thread nD τ).loc main_arg0)) (m ((c : Thread nD τ).loc main_arg2))
    (m ((c : Thread nD τ).loc main_arg3)) (m ((c : Thread nD τ).loc main_arg4))
    (V m c main_v22) (V m c main_v23) (V m c main_v24)
    (inv_apply m c) (den_ne_zero _) (wlT_apply m c) (wrT_apply m c)
  rw [← h, ← found_agg m c, V_main_arg0, V_main_arg3]

end Cert.KernelIdeal.Entry

end
-- ==== Proof.lean ====
/-
  One layer of a graph convolution with mean aggregation: the fused kernel against the plain reference.

  Both programs first build, from the node features and the edge list, the aggregated neighbour features (a gather
  at the edges' sources scatter-added at their targets) and the neighbour count clamped below by one; these two
  stages are the same operations in both and are carried as they are. The reference then divides the aggregate by
  the clamped count, multiplies by the transposed left weights, adds the bias, and adds the features times the
  transposed right weights. The kernel precomputes the reciprocal of the clamped count as a column and the two
  transposed weight matrices, and in each of twenty row blocks scales the aggregate by the reciprocal, takes the two
  products, adds them and adds the bias last.

  On the extended reals the two agree entry by entry. The clamped count is a maximum with one, so it is never zero,
  and for a non-zero `d` the quotient `a / d` is `a · d⁻¹` while `1 / d` is `d⁻¹`: scaling by the reciprocal IS
  dividing, whatever `a` is, finite or not. The remaining difference is the order of the three summands, and
  addition of extended reals is commutative and associative. So the precondition (finite inputs) is never opened.

  The modules: `SageLaw` (the layer's entry, its reciprocal arrangement, and the law between them), `RefIsLayer` (the
  reference's result is the layer), `BodyAtEntry` (the kernel body's stored block at one entry), `BlocksToArray` (the
  twenty blocks make one whole-array function), `EntryArrays` (the arrays the region finds, read at an index, and the
  law applied to them), `LibColumnBroadcast` (a column broadcast along its rows). The kernel never rewrites anything
  on the way to its idealization, so that conjunct is trivial; the frames are the generated ones.
-/
import proofs.«122155_j87703232184758_2_alg».proof.Defs
import proofs.«122155_j87703232184758_2_alg».proof.Proof.Gen.Kernel
import proofs.«122155_j87703232184758_2_alg».proof.Proof.Gen.Kernel.Skeleton
import proofs.«122155_j87703232184758_2_alg».proof.Proof.Gen.Kernel.Launch
import proofs.«122155_j87703232184758_2_alg».proof.Proof.Gen.Kernel.Points
import proofs.«122155_j87703232184758_2_alg».proof.Proof.Gen.Kernel.Frame
import proofs.«122155_j87703232184758_2_alg».proof.Proof.Gen.KernelIdeal
import proofs.«122155_j87703232184758_2_alg».proof.Proof.Gen.KernelIdeal.Skeleton
import proofs.«122155_j87703232184758_2_alg».proof.Proof.Gen.KernelIdeal.Launch
import proofs.«122155_j87703232184758_2_alg».proof.Proof.Gen.KernelIdeal.Points
import proofs.«122155_j87703232184758_2_alg».proof.Proof.Gen.KernelIdeal.Frame
import proofs.«122155_j87703232184758_2_alg».proof.Proof.Gen.ReferenceIdeal
import proofs.«122155_j87703232184758_2_alg».proof.Proof.Gen.Pre_finite_inputs
import proofs.«122155_j87703232184758_2_alg».proof.Proof.Gen.KernelIdeal.Value
import proofs.«122155_j87703232184758_2_alg».proof.Proof.Gen.ReferenceIdeal.Run
import proofs.«122155_j87703232184758_2_alg».proof.Proof.Gen.ReferenceIdeal.Read
import proofs.«122155_j87703232184758_2_alg».proof.Proof.RefIsLayer
import proofs.«122155_j87703232184758_2_alg».proof.Proof.BlocksToArray
import proofs.«122155_j87703232184758_2_alg».proof.Proof.EntryArrays
import Idealize.ShloMosaic.Adequacy
import Idealize.ShloMosaic.Init

noncomputable section

namespace Cert.Proof

open Idealize.ShloMosaic Idealize.SL.Sem

/-- The printed kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments the kernel's result array ends at the reciprocal arrangement of the arrays
    its region finds, the reference's at the layer of the same aggregate and clamped count; these are one array. -/
theorem algebraic : Cert.algebraic_KernelIdeal_ReferenceIdeal := by
  intro m ρ m' ρ' _ hagree
  refine ⟨fun c => Cert.KernelIdeal.Whole.found m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_is_layer,
    (hagree c).1, (hagree c).2.1, (hagree c).2.2.1, (hagree c).2.2.2.1, (hagree c).2.2.2.2]
  exact ((Cert.KernelIdeal.Whole.found_named m c).trans (Cert.KernelIdeal.Entry.fused_found m c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
